-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256 : Shape := ⟨2, ![512, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S262144x256 .f32) (main_arg1 : FVec F S512x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S262144x256 : Shape := ⟨2, ![262144, 256]⟩
abbrev S512x256 : Shape := ⟨2, ![512, 256]⟩
abbrev S_ : Shape := ⟨0, ![]⟩
abbrev S512 : Shape := ⟨1, ![512]⟩
abbrev S1x512 : Shape := ⟨2, ![1, 512]⟩
abbrev S262144x512 : Shape := ⟨2, ![262144, 512]⟩
abbrev S4096x256 : Shape := ⟨2, ![4096, 256]⟩
abbrev S4096x512 : Shape := ⟨2, ![4096, 512]⟩
abbrev S512x1 : Shape := ⟨2, ![512, 1]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S512x256, .bf16⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S262144x512, .f32⟩
  | .local _ .vmem, ⟨0, _⟩ => ⟨S4096x256, .f32⟩
  | .local _ .vmem, ⟨1, _⟩ => ⟨S4096x256, .f32⟩
  | .local _ .vmem, ⟨2, _⟩ => ⟨S512x256, .bf16⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | .local _ .vmem, ⟨6, _⟩ => ⟨S4096x512, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  v9
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let v11 : Index := Scalar.indexCast v10
  let c0_6 : Index := 0#32
  ![v11.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let v16 : Index := Scalar.indexCast v10
  let c0_8 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S512x256_S512_d1 : S512x256.ReducesTo [1] S512
  h_S_ : 0 < S_.numel
  bcast_S512_S1x512_1 : S512.BroadcastsInDim S1x512 (![1] : Fin 1 → Fin S1x512.rank)
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S512x256_S512 : S512x256.Reduces [1] S512
  shapeCasts_S512_S512x1 : S512.ShapeCasts S512x1
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  dot_S4096x256_S512x256_S4096x512_1_1_0_0_n_n_wf : DotDims.WF S4096x256 S512x256 S4096x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x256.size a ≤ S4096x256.size a
  k0_off2_inb : ∀ k0_t1 : Fin k0_t1_loop.trips, ∀ a, (k0_off2 k0_t1) a + S512x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S262144x512.size a
  hwx0_3 : ∀ i : grid0.Coords, EltTy.bits .f32 = 32 ∨ (Rect.block (s := S262144x512) S4096x512.size (cc0_transform_3 i) (hinb0_3 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S512x256 : Shape := ⟨2, ![512, 256]⟩
abbrev S_ : Shape := ⟨0, ![]⟩
abbrev S262144 : Shape := ⟨1, ![262144]⟩
abbrev S262144x1 : Shape := ⟨2, ![262144, 1]⟩
abbrev S512 : Shape := ⟨1, ![512]⟩
abbrev S1x512 : Shape := ⟨2, ![1, 512]⟩
abbrev S262144x512 : Shape := ⟨2, ![262144, 512]⟩

abbrev nBuf : Space → Nat
  | .hbm => 38
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S262144x512, .f32⟩
  | .hbm, ⟨11, _⟩ => ⟨S262144x512, .f32⟩
  | .hbm, ⟨12, _⟩ => ⟨S262144x512, .f32⟩
  | .hbm, ⟨13, _⟩ => ⟨S262144x512, .f32⟩
  | .hbm, ⟨14, _⟩ => ⟨S_, .f32⟩
  | .hbm, ⟨15, _⟩ => ⟨S262144x512, .f32⟩
  | .hbm, ⟨16, _⟩ => ⟨S262144x512, .f32⟩
  | .hbm, ⟨17, _⟩ => ⟨S262144x512, .f32⟩
  | .hbm, ⟨18, _⟩ => ⟨S_, .f32⟩
  | .hbm, ⟨19, _⟩ => ⟨S262144x512, .f32⟩
  | .hbm, ⟨20, _⟩ => ⟨S262144x512, .f32⟩
  | .hbm, ⟨21, _⟩ => ⟨S_, .f32⟩
  | .hbm, ⟨22, _⟩ => ⟨S262144x512, .f32⟩
  | .hbm, ⟨23, _⟩ => ⟨S262144x512, .f32⟩
  | .hbm, ⟨24, _⟩ => ⟨S_, .f32⟩
  | .hbm, ⟨25, _⟩ => ⟨S262144x512, .f32⟩
  | .hbm, ⟨26, _⟩ => ⟨S262144x512, .f32⟩
  | .hbm, ⟨27, _⟩ => ⟨S_, .f32⟩
  | .hbm, ⟨28, _⟩ => ⟨S262144x512, .f32⟩
  | .hbm, ⟨29, _⟩ => ⟨S262144x512, .f32⟩
  | .hbm, ⟨30, _⟩ => ⟨S_, .f32⟩
  | .hbm, ⟨31, _⟩ => ⟨S262144x512, .f32⟩
  | .hbm, ⟨32, _⟩ => ⟨S262144x512, .f32⟩
  | .hbm, ⟨33, _⟩ => ⟨S_, .f32⟩
  | .hbm, ⟨34, _⟩ => ⟨S262144, .f32⟩
  | .hbm, ⟨35, _⟩ => ⟨S262144x1, .f32⟩
  | .hbm, ⟨36, _⟩ => ⟨S262144x512, .f32⟩
  | .hbm, ⟨37, _⟩ => ⟨S262144x512, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S512x256_S512_d1 : S512x256.ReducesTo [1] S512
  bcast_S512_S1x512_1 : S512.BroadcastsInDim S1x512 (![1] : Fin 1 → Fin S1x512.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  reducesTo_S262144x512_S262144_d1 : S262144x512.ReducesTo [1] S262144
  dot_S262144x256_S512x256_S262144x512_1_1_0_0_n_n_wf : DotDims.WF S262144x256 S512x256 S262144x512 [1] [1] [0] [0] [] []

variable [Facts₀]

def dot_S262144x256_S512x256_S262144x512_1_1_0_0_n_n : DotDims S262144x256 S512x256 S262144x512 where
  lhsContracting := [1]
  rhsContracting := [1]
  lhsNonContracting := [0]
  rhsNonContracting := [0]
  lhsBatch := []
  rhsBatch := []
  wf := dot_S262144x256_S512x256_S262144x512_1_1_0_0_n_n_wf

class Facts : Prop extends Facts₀ where

variable [Facts]
-- ==== Proof.StudentT.lean ====
/-
  The soft assignment of rows to cluster centres by a Student-t kernel with one degree of freedom.

  For a row v of 256 numbers and 512 centres c_k the weight of centre k is
      w_k = 1 / (1 + max (|v|^2 + |c_k|^2 - 2 (v . c_k), 0)),
  and the assignment is w_k divided by the sum of the 512 weights. Everything is read on the extended reals:
  a sum of 256 or 512 terms is a finite sum, the quotient is the extended quotient, and the three float
  words that occur (0, 1 and 2) are kept as the extended reals their bit patterns denote. (A sum that a program
  starts from the float zero is the plain sum: the zero word denotes 0.)

  The assignment of a row depends on that row alone, on the squared norms of the centres and on the row's 512
  products with the centres: this is what lets a result computed in slabs of rows be read as one function.

  Two identities are proved here because one of the two programs compared divides the squared distance by the
  word 1 and raises the weight to the power 1: on every extended real both leave their argument as it is.
-/
import Idealize.ShloMosaic.PureOps.Ideal
import Idealize.ShloMosaic.PureOps.Ideal.Laws
import Idealize.ShloMosaic.Lib.ValueIdx

noncomputable section

namespace Cert.StudentT

open Idealize.ShloMosaic Idealize.ShloMosaic.ValueIdx

/-- The word of the float 1 denotes the extended real 1. -/
theorem ofBits_one : Ideal.ofBits .f32 0x3F800000#32 = 1 := by
  simp [Ideal.ofBits, Ideal.ieee, -EReal.coe_mul]; norm_num

/-- Dividing by the float 1 changes no extended real: x / 1 = x * (1/1) = x, at the infinities too. -/
theorem div_one (x : EReal) : Ideal.div x (Ideal.ofBits .f32 0x3F800000#32) = x := by
  rw [ofBits_one, ← EReal.coe_one, Ideal.div_coe one_ne_zero]
  simp

/-- Raising to the power 1 changes no extended real: the real power r^1 is r, and the two infinities are fixed
    by a positive exponent. -/
theorem pow_one (x : EReal) : Ideal.pow x (Ideal.ofBits .f32 0x3F800000#32) = x := by
  rw [ofBits_one, ← EReal.coe_one]
  induction x using EReal.rec with
  | bot => rfl
  | top => simp [Ideal.pow_top]
  | coe r => rw [Ideal.pow_coe_coe]; exact congrArg _ (Real.rpow_one r)

/-- The squared norm of a row of 256 entries. -/
def sqNorm (v : Fin 256 → EReal) : EReal := ∑ d : Fin 256, v d * v d

/-- A sum started from the float zero is the sum. -/
theorem zero_word_add (s : EReal) : Ideal.ofBits .f32 0x00000000#32 + s = s := by
  rw [Ideal.ofBits_zero_f32, zero_add]

/-- The product of two rows of 256 entries. -/
def dot (u v : Fin 256 → EReal) : EReal := ∑ d : Fin 256, u d * v d

/-- The Student-t weight 1 / (1 + max (sx + sc - 2 cr, 0)) of a squared distance given by its three parts: the
    squared norm of the row, the squared norm of the centre, and their product. -/
def weight (sx sc cr : EReal) : EReal :=
  Ideal.div (Ideal.ofBits .f32 0x3F800000#32)
    (Ideal.ofBits .f32 0x3F800000#32 + max ((sx + sc) - Ideal.ofBits .f32 0x40000000#32 * cr) (Ideal.ofBits .f32 0x00000000#32))

/-- The weight of centre k divided by the sum of the 512 weights. -/
def assign (sx : EReal) (sc cr : Fin 512 → EReal) (k : Fin 512) : EReal :=
  Ideal.div (weight sx (sc k) (cr k)) (∑ k' : Fin 512, weight sx (sc k') (cr k'))

/-- Row n of an array of R rows of 256 entries. -/
def row {R : Nat} (X : (⟨2, ![R, 256]⟩ : Shape).Idx → EReal) (n : Fin R) : Fin 256 → EReal := fun d => X (ix2 n d)

/-- Entry (n, k) of the soft assignment of the R rows of X to the 512 rows of C. -/
def softAssign {R : Nat} (X : (⟨2, ![R, 256]⟩ : Shape).Idx → EReal) (C : (⟨2, ![512, 256]⟩ : Shape).Idx → EReal)
    (n : Fin R) (k : Fin 512) : EReal :=
  assign (sqNorm (row X n)) (fun k' => sqNorm (row C k')) (fun k' => dot (row X n) (row C k')) k

/-- The soft assignment as an array of R rows of 512 entries. -/
def softAssignArr {R : Nat} (X : (⟨2, ![R, 256]⟩ : Shape).Idx → EReal) (C : (⟨2, ![512, 256]⟩ : Shape).Idx → EReal) :
    (⟨2, ![R, 512]⟩ : Shape).Idx → EReal :=
  fun y => softAssign X C (y 0) (y 1)

theorem softAssignArr_ix2 {R : Nat} (X : (⟨2, ![R, 256]⟩ : Shape).Idx → EReal) (C : (⟨2, ![512, 256]⟩ : Shape).Idx → EReal)
    (n : Fin R) (k : Fin 512) : softAssignArr X C (ix2 n k) = softAssign X C n k := rfl

end Cert.StudentT

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.Payload.lean ====
import proofs.«102737_j63067299774668_2_alg».proof.Proof.Gen.KernelIdeal.Skeleton
import proofs.«102737_j63067299774668_2_alg».proof.Proof.StudentT
import proofs.«102737_j63067299774668_2_alg».proof.Proof.LibColumnBroadcast
import proofs.«102737_j63067299774668_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

/-
  The two stored values of the kernel body, read at an index on the extended reals.

  The first store fills a 4096 x 512 scratch with the products of the block's rows with the 512 centres. The
  second, inside the loop over eight slabs of 512 rows, is computed from a slab of the block (512 x 256), the same
  slab of the scratch (512 x 512) and the row of the centres' squared norms (1 x 512): entry (p, q) is the
  Student-t assignment of the slab's row p to centre q, with the products taken from the scratch slab.
  A lane sum with kept dimension is read as a column whose entry at row p is the sum of row p.
-/

noncomputable section

namespace Cert.KernelIdeal.Payload

open Cert.KernelIdeal Cert.KernelIdeal.Gen Idealize.ShloMosaic Idealize.ShloMosaic.ValueIdx Cert.StudentT

/-- The dimension record of the body's product: rows of the block against rows of the centres. -/
abbrev DD : DotDims S4096x256 S512x256 S4096x512 := dot_S4096x256_S512x256_S4096x512_1_1_0_0_n_n

/-- The left operand is read at the output's row. -/
theorem lhs_row (i : S4096x512.Idx) (q : DD.contr.Idx) : (DD.lhsIdx i q 0).val = (i 0).val := by
  unfold DotDims.lhsIdx
  rw [dif_neg (show ¬(0 : Fin S4096x256.rank) ∈ DD.lhsBatch by decide), dif_pos (show (0 : Fin S4096x256.rank) ∈ DD.lhsNonContracting by decide)]
  rfl

/-- The right operand is read at the row named by the output's column: the centres enter transposed. -/
theorem rhs_row (i : S4096x512.Idx) (q : DD.contr.Idx) : (DD.rhsIdx i q 0).val = (i 1).val := by
  unfold DotDims.rhsIdx
  rw [dif_neg (show ¬(0 : Fin S512x256.rank) ∈ DD.rhsBatch by decide), dif_pos (show (0 : Fin S512x256.rank) ∈ DD.rhsNonContracting by decide)]
  rfl

/-- The first store's payload at (r, k): the product of row r of the block with row k of the centres (the
    change of float format on the way in is the identity, and the accumulator is the zero splat). -/
theorem pay1_apply (v0 : FVec Ideal S4096x256 .f32) (v2 : FVec Ideal S512x256 .bf16) (r : Fin 4096) (k : Fin 512) :
    k0_pay1 (F := Ideal) v0 v2 (ix2 r k) = dot (row v0 r) (row v2 k) := by
  unfold k0_pay1
  rw [shapeCast_self, shapeCast_self]
  simp only [matmul]
  rw [Ideal.matmul_constant_zero_apply, ← Equiv.sum_comp (contrEquiv1 DD 256 rfl rfl).symm]
  unfold dot
  refine Finset.sum_congr rfl fun d _ => ?_
  have hk := contrEquiv1_symm_val DD 256 rfl rfl d
  have el : DD.lhsIdx (ix2 r k) ((contrEquiv1 DD 256 rfl rfl).symm d) = ix2 r d := funext fun a => Fin.ext (by
    match a with
    | ⟨0, _⟩ => exact lhs_row _ _
    | ⟨1, _⟩ => exact (DD.lhsIdx_val_of_single rfl _ _).trans hk)
  have er : DD.rhsIdx (ix2 r k) ((contrEquiv1 DD 256 rfl rfl).symm d) = ix2 k d := funext fun a => Fin.ext (by
    match a with
    | ⟨0, _⟩ => exact rhs_row _ _
    | ⟨1, _⟩ => exact (DD.rhsIdx_val_of_single rfl _ _).trans hk)
  rw [el, er]
  rfl

/-- The inserted index of a lane sum over the columns of a 512 x 256 block at row p is (p, d). -/
theorem lift256 (p : Fin 512) (d : Fin 256) : reduces_S512x256_S512.lift (ix1 p) d = ix2 p d :=
  funext fun a => Fin.ext (by match a with | ⟨0, _⟩ => rfl | ⟨1, _⟩ => rfl)

/-- The same for a 512 x 512 block: (p, k). -/
theorem lift512 (p : Fin 512) (k : Fin 512) : reduces_S512x512_S512.lift (ix1 p) k = ix2 p k :=
  funext fun a => Fin.ext (by match a with | ⟨0, _⟩ => rfl | ⟨1, _⟩ => rfl)

/-- The kept-dimension lane sum of a 512 x 256 block, as a column, at row p: the sum of row p. -/
theorem colsum256 (src : FVec Ideal S512x256 .f32) (hφ : FKind.Formats .f32) (hacc : (0x00000000#32 : BitVec 32) = 0x00000000#32)
    (p : Fin 512) (u : Fin 1) :
    shapeCast S512x1 (multiReduction .add [1] S512 src 0x00000000#32 reduces_S512x256_S512 hφ hacc) shapeCasts_S512_S512x1 (ix2 p u)
      = ∑ d : Fin 256, src (ix2 p d) := by
  rw [Cert.Lib.shapeCast_a_a1_apply]
  refine (Ideal.multiReduction_add_single src _ reduces_S512x256_S512 hφ hacc (ix1 p)).trans ?_
  exact Finset.sum_congr rfl fun d _ => congrArg src (lift256 p d)

/-- The kept-dimension lane sum of a 512 x 512 block, as a column, at row p: the sum of row p. -/
theorem colsum512 (src : FVec Ideal S512x512 .f32) (hφ : FKind.Formats .f32) (hacc : (0x00000000#32 : BitVec 32) = 0x00000000#32)
    (p : Fin 512) (u : Fin 1) :
    shapeCast S512x1 (multiReduction .add [1] S512 src 0x00000000#32 reduces_S512x512_S512 hφ hacc) shapeCasts_S512_S512x1 (ix2 p u)
      = ∑ k : Fin 512, src (ix2 p k) := by
  rw [Cert.Lib.shapeCast_a_a1_apply]
  refine (Ideal.multiReduction_add_single src _ reduces_S512x512_S512 hφ hacc (ix1 p)).trans ?_
  exact Finset.sum_congr rfl fun k _ => congrArg src (lift512 p k)

/-- The loop's stored value at (p, q): from the slab A of the block, the slab B of the products and the row C of
    the centres' squared norms, the weight 1 / (1 + max (|A_p|^2 + C_q - 2 B_pq, 0)) over the sum of row p's weights. -/
theorem pay2_apply (A : FVec Ideal S512x256 .f32) (B : FVec Ideal S512x512 .f32) (C : FVec Ideal S1x512 .f32) (p q : Fin 512) :
    k0_pay2 (F := Ideal) A B C (ix2 p q)
      = assign (sqNorm (row A p)) (fun k => C (ix2 (0 : Fin 1) k)) (fun k => B (ix2 p k)) q := by
  unfold k0_pay2
  simp only [divf_apply, addf_apply, subf_apply, mulf_apply, maximumf_apply, broadcast_apply,
    Cert.Lib.broadcastTo_a1_ab_apply, broadcastTo_1b_ab_apply, shapeCast_self]
  rw [colsum512]
  simp only [divf_apply, addf_apply, subf_apply, mulf_apply, maximumf_apply, broadcast_apply,
    Cert.Lib.broadcastTo_a1_ab_apply, broadcastTo_1b_ab_apply, shapeCast_self]
  rw [colsum256]
  simp only [mulf_apply]
  rfl

end Cert.KernelIdeal.Payload

end
-- ==== Proof.Slabs.lean ====
import proofs.«102737_j63067299774668_2_alg».proof.Proof.Gen.KernelIdeal.Frame
import proofs.«102737_j63067299774668_2_alg».proof.Proof.Payload

/-
  What one grid point leaves in its 4096 x 512 output block, as ONE function of the point's three input blocks.

  The body first fills a scratch with the products of the block's rows with the centres, then walks eight slabs of
  512 rows: slab k reads rows 512 k .. 512 k + 511 of the input block and of the scratch and stores the
  assignment of those rows into the same rows of the output. Since the assignment of a row depends on that row
  alone, every slab's store is the restriction of one function of the whole block — row r of the output block is
  the assignment of row r of the input block — and eight stores that tile the block leave exactly that function.
-/
set_option maxRecDepth 16384

noncomputable section

namespace Cert.KernelIdeal.Slabs

open Cert.KernelIdeal Cert.KernelIdeal.Gen Idealize.ShloMosaic Idealize.ShloMosaic.TcCoe Idealize.ShloMosaic.ValueIdx
open Cert.StudentT Cert.KernelIdeal.Payload
open Idealize.SL Idealize.SL.Sem

/-- The output block of one grid point: entry (r, q) is the assignment of row r of the input block x0 to centre q,
    the centres' rows x1 and their squared norms x2 given. -/
def blockFn (x0 : S4096x256.Idx → EReal) (x1 : S512x256.Idx → EReal) (x2 : S1x512.Idx → EReal) : S4096x512.Idx → EReal :=
  fun y => assign (sqNorm (row x0 (y 0))) (fun k => x2 (ix2 (0 : Fin 1) k)) (fun k => dot (row x0 (y 0)) (row x1 k)) (y 1)

/-- Row a of slab k is row 512 k + a of the block. -/
def slabRow (k : Fin k0_t1_loop.trips) (a : Fin 512) : Fin 4096 :=
  ⟨512 * k.val + a.val, by have := k0_t1_abs.2.1; have := k.isLt; have := a.isLt; omega⟩

/-- The slab's rectangle in the input block: (a, d) sits at (512 k + a, d). -/
theorem idx_in (k : Fin k0_t1_loop.trips) (a : Fin 512) (d : Fin 256) :
    (Rect.unit (s := S4096x256) (k0_off1 k) S512x256.size (k0_off1_inb k)).toLoadRect.idx (ix2 a d) = ix2 (slabRow k a) d :=
  funext fun ax => Fin.ext (by
    match ax with
    | ⟨0, _⟩ => show k0_off1 k 0 + 1 * a.val = 512 * k.val + a.val; rw [k0_off1_eq]; simp
    | ⟨1, _⟩ => show k0_off1 k 1 + 1 * d.val = d.val; rw [k0_off1_eq]; simp)

/-- The slab's rectangle in the scratch and in the output block: (a, q) sits at (512 k + a, q). -/
theorem idx_out (k : Fin k0_t1_loop.trips) (a : Fin 512) (q : Fin 512) :
    (Rect.unit (s := S4096x512) (k0_off2 k) S512x512.size (k0_off2_inb k)).toLoadRect.idx (ix2 a q) = ix2 (slabRow k a) q :=
  funext fun ax => Fin.ext (by
    match ax with
    | ⟨0, _⟩ => show k0_off2 k 0 + 1 * a.val = 512 * k.val + a.val; rw [k0_off2_eq]; simp
    | ⟨1, _⟩ => show k0_off2 k 1 + 1 * q.val = q.val; rw [k0_off2_eq]; simp)

/-- The index of the whole 1 x 512 row. -/
theorem idx_norms (q : Fin 512) :
    (Rect.unit (s := S1x512) ![0, 0] S1x512.size inb_S1x512_S1x512_0_0).toLoadRect.idx (ix2 (0 : Fin 1) q) = ix2 (0 : Fin 1) q :=
  funext fun ax => Fin.ext (by
    match ax with
    | ⟨0, _⟩ => rfl
    | ⟨1, _⟩ => show 0 + 1 * q.val = q.val; omega)

/-- A slab's stored value from what its three loads hold: if A is rows 512 k .. of x0, B the same rows of the
    products of x0's rows with the centres, and C the squared norms, then entry (a, b) of the slab's payload is the
    block function at (512 k + a, b) — the assignment of a row depends on that row alone. -/
theorem slab_value (x0 : S4096x256.Idx → EReal) (x1 : S512x256.Idx → EReal) (x2 : S1x512.Idx → EReal)
    (A : FVec Ideal S512x256 .f32) (B : FVec Ideal S512x512 .f32) (C : FVec Ideal S1x512 .f32)
    (k : Fin k0_t1_loop.trips) (a b : Fin 512)
    (hA : ∀ d : Fin 256, A (ix2 a d) = x0 (ix2 (slabRow k a) d))
    (hB : ∀ q : Fin 512, B (ix2 a q) = dot (row x0 (slabRow k a)) (row x1 q))
    (hC : ∀ q : Fin 512, C (ix2 (0 : Fin 1) q) = x2 (ix2 (0 : Fin 1) q)) :
    k0_pay2 (F := Ideal) A B C (ix2 a b) = blockFn x0 x1 x2 (ix2 (slabRow k a) b) := by
  rw [pay2_apply]
  have e1 : row A a = row x0 (slabRow k a) := funext hA
  have e2 : (fun q => B (ix2 a q)) = fun q => dot (row x0 (slabRow k a)) (row x1 q) := funext hB
  have e3 : (fun q => C (ix2 (0 : Fin 1) q)) = fun q => x2 (ix2 (0 : Fin 1) q) := funext hC
  rw [e1, e2, e3]
  rfl

/-- ONE TRIP's store restricts the block function: with the input block x0 and the squared norms x2 in their
    buffers, and a scratch that reads as the products of x0's rows with the centres, slab k's piece at its own
    index (a, b) is the block function at (512 k + a, b). -/
theorem trip_restricts (𝒱 : Variants) (bd : Option 𝒱.V) (c : Dev nD) (i : grid0.Coords) (arg1 : Memref sig .tc .vmem S4096x256 .f32) (harg1 : arg1.IsWhole) (arg2 : Memref sig .tc .vmem S512x256 .bf16) (harg2 : arg2.IsWhole) (arg3 : Memref sig .tc .vmem S1x512 .f32) (harg3 : arg3.IsWhole) (arg4 : Memref sig .tc .vmem S4096x512 .f32) (harg4 : arg4.IsWhole) (arg5 : Memref sig .tc .vmem S4096x512 .f32) (harg5 : arg5.IsWhole) (x0 : Vec Ideal S4096x256 .f32) (x1 : Vec Ideal S512x256 .bf16) (x2 : Vec Ideal S1x512 .f32)
    (X5 : BufTy.Contents (Elt Ideal) arg5.view.ty)
    (hX5 : ∀ (r : Fin 4096) (q : Fin 512), arg5.view.read (Elt Ideal) X5 (ix2 r q) = dot (row x0 r) (row x1 q))
    (k : Fin k0_t1_loop.trips) :
    ∀ p ∈ tripL_k0_t1 (F := Ideal) 𝒱 c bd i arg1 harg1 arg2 harg2 arg3 harg3 arg4 harg4 arg5 harg5 (harg1.unread x0) (harg3.unread x2) X5 k,
      ∀ x : p.1.shape.Idx, p.2 x = blockFn x0 x1 x2 (p.1.emb x) := by
  unfold tripL_k0_t1 trip_k0_t1
  dsimp only
  intro p hp
  rw [List.mem_singleton] at hp
  subst hp
  intro x
  dsimp only at x ⊢
  obtain ⟨a, b, rfl⟩ : ∃ (a b : Fin 512), x = ix2 a b := ⟨x 0, x 1, @eq_ix2 512 512 x⟩
  refine (slab_value x0 x1 x2 _ _ _ k a b ?_ ?_ ?_).trans (congrArg (blockFn x0 x1 x2) (idx_out k a b).symm)
  · intro d
    rw [View.readAt_apply, harg1.read_unread, idx_in]
  · intro q
    rw [View.readAt_apply, idx_out, hX5]
  · intro q
    rw [View.readAt_apply, harg3.read_unread, idx_norms]

/-- EVERY piece of the trips before n restricts the block function: by induction on n, a trip's pieces are put in
    front of the earlier trips'. -/
theorem trips_restrict (𝒱 : Variants) (bd : Option 𝒱.V) (c : Dev nD) (i : grid0.Coords) (arg1 : Memref sig .tc .vmem S4096x256 .f32) (harg1 : arg1.IsWhole) (arg2 : Memref sig .tc .vmem S512x256 .bf16) (harg2 : arg2.IsWhole) (arg3 : Memref sig .tc .vmem S1x512 .f32) (harg3 : arg3.IsWhole) (arg4 : Memref sig .tc .vmem S4096x512 .f32) (harg4 : arg4.IsWhole) (arg5 : Memref sig .tc .vmem S4096x512 .f32) (harg5 : arg5.IsWhole) (x0 : Vec Ideal S4096x256 .f32) (x1 : Vec Ideal S512x256 .bf16) (x2 : Vec Ideal S1x512 .f32)
    (X5 : BufTy.Contents (Elt Ideal) arg5.view.ty)
    (hX5 : ∀ (r : Fin 4096) (q : Fin 512), arg5.view.read (Elt Ideal) X5 (ix2 r q) = dot (row x0 r) (row x1 q)) :
    ∀ n : ℕ, ∀ p ∈ pb_k0_t1 (F := Ideal) 𝒱 c bd i arg1 harg1 arg2 harg2 arg3 harg3 arg4 harg4 arg5 harg5 (harg1.unread x0) (harg3.unread x2) X5 n,
      ∀ x : p.1.shape.Idx, p.2 x = blockFn x0 x1 x2 (p.1.emb x)
  | 0 => fun p hp => absurd hp (by rw [pb_k0_t1.eq_1]; exact List.not_mem_nil)
  | n + 1 => fun p hp => by
    rw [pb_k0_t1.eq_2] at hp
    unfold pb_k0_t1Step at hp
    split at hp
    · rename_i h
      rcases List.mem_append.mp hp with hm | hm
      · exact trip_restricts 𝒱 bd c i arg1 harg1 arg2 harg2 arg3 harg3 arg4 harg4 arg5 harg5 x0 x1 x2 X5 hX5 ⟨n, h⟩ p hm
      · exact trips_restrict 𝒱 bd c i arg1 harg1 arg2 harg2 arg3 harg3 arg4 harg4 arg5 harg5 x0 x1 x2 X5 hX5 n p hm
    · exact trips_restrict 𝒱 bd c i arg1 harg1 arg2 harg2 arg3 harg3 arg4 harg4 arg5 harg5 x0 x1 x2 X5 hX5 n p hp

/-- The index of a whole 4096 x 512 buffer. -/
theorem idx_whole_out (r : Fin 4096) (q : Fin 512) :
    (Rect.unit (s := S4096x512) ![0, 0] S4096x512.size inb_S4096x512_S4096x512_0_0).emb (ix2 r q) = ix2 r q :=
  funext fun ax => Fin.ext (by
    match ax with
    | ⟨0, _⟩ => show 0 + 1 * r.val = r.val; omega
    | ⟨1, _⟩ => show 0 + 1 * q.val = q.val; omega)

theorem idx_whole_in (r : Fin 4096) (d : Fin 256) :
    (Rect.unit (s := S4096x256) ![0, 0] S4096x256.size inb_S4096x256_S4096x256_0_0).toLoadRect.idx (ix2 r d) = ix2 r d :=
  funext fun ax => Fin.ext (by
    match ax with
    | ⟨0, _⟩ => show 0 + 1 * r.val = r.val; omega
    | ⟨1, _⟩ => show 0 + 1 * d.val = d.val; omega)

theorem idx_whole_centres (q : Fin 512) (d : Fin 256) :
    (Rect.unit (s := S512x256) ![0, 0] S512x256.size inb_S512x256_S512x256_0_0).toLoadRect.idx (ix2 q d) = ix2 q d :=
  funext fun ax => Fin.ext (by
    match ax with
    | ⟨0, _⟩ => show 0 + 1 * q.val = q.val; omega
    | ⟨1, _⟩ => show 0 + 1 * d.val = d.val; omega)

/-- THE SCRATCH after the body's first store reads, at (r, q), the product of row r of the input block with row q
    of the centres: one store through the whole buffer, whatever it held before. -/
theorem scratch_read (c : Dev nD) (arg1 : Memref sig .tc .vmem S4096x256 .f32) (harg1 : arg1.IsWhole) (arg2 : Memref sig .tc .vmem S512x256 .bf16) (harg2 : arg2.IsWhole)
    (arg5 : Memref sig .tc .vmem S4096x512 .f32) (x0 : Vec Ideal S4096x256 .f32) (x1 : Vec Ideal S512x256 .bf16)
    (f : BufTy.Contents (Elt Ideal) arg5.view.ty) (r : Fin 4096) (q : Fin 512) :
    arg5.view.read (Elt Ideal) (arg5.view.writes (Elt Ideal) f (kernelRun0_A.sl.HS0_1 (F := Ideal) c arg1 harg1 arg2 harg2 x0 x1)) (ix2 r q)
      = dot (row x0 r) (row x1 q) := by
  unfold kernelRun0_A.sl.HS0_1
  have h := View.read_writes_cons_emb arg5.view f (Rect.unit (s := S4096x512) ![0, 0] S4096x512.size inb_S4096x512_S4096x512_0_0)
    (k0_pay1 (F := Ideal) (View.readAt (Elt Ideal) arg1.view (Rect.unit (s := S4096x256) ![0, 0] S4096x256.size inb_S4096x256_S4096x256_0_0).toLoadRect (harg1.unread x0))
      (View.readAt (Elt Ideal) arg2.view (Rect.unit (s := S512x256) ![0, 0] S512x256.size inb_S512x256_S512x256_0_0).toLoadRect (harg2.unread x1))) [] (ix2 r q)
  rw [idx_whole_out] at h
  refine h.trans ?_
  rw [pay1_apply]
  have e1 : row (View.readAt (Elt Ideal) arg1.view (Rect.unit (s := S4096x256) ![0, 0] S4096x256.size inb_S4096x256_S4096x256_0_0).toLoadRect (harg1.unread x0)) r = row x0 r :=
    funext fun d => by
      unfold row
      rw [View.readAt_apply, harg1.read_unread, idx_whole_in]
  have e2 : row (View.readAt (Elt Ideal) arg2.view (Rect.unit (s := S512x256) ![0, 0] S512x256.size inb_S512x256_S512x256_0_0).toLoadRect (harg2.unread x1)) q = row x1 q :=
    funext fun d => by
      unfold row
      rw [View.readAt_apply, harg2.read_unread, idx_whole_centres]
  rw [e1, e2]

/-- THE BLOCK a grid point leaves is the block function of its three input blocks: the run's pieces are the eight
    slabs' stores, each a restriction of the block function, and together they cover the block. -/
theorem out_apply (c : Dev nD) (i : grid0.Coords) (arg1 : Memref sig .tc .vmem S4096x256 .f32) (harg1 : arg1.IsWhole) (arg2 : Memref sig .tc .vmem S512x256 .bf16) (harg2 : arg2.IsWhole) (arg3 : Memref sig .tc .vmem S1x512 .f32) (harg3 : arg3.IsWhole) (arg4 : Memref sig .tc .vmem S4096x512 .f32) (harg4 : arg4.IsWhole) (arg5 : Memref sig .tc .vmem S4096x512 .f32) (harg5 : arg5.IsWhole) (x0 : Vec Ideal S4096x256 .f32) (x1 : Vec Ideal S512x256 .bf16) (x2 : Vec Ideal S1x512 .f32) (y : S4096x512.Idx) :
    out0_A_3 (F := Ideal) c i arg1 harg1 arg2 harg2 arg3 harg3 arg4 harg4 arg5 harg5 x0 x1 x2 y = blockFn x0 x1 x2 y := by
  unfold out0_A_3
  refine View.read_writes_apply_of_pieces VO0_3 _ (blockFn x0 x1 x2) _ ?_ y (cover0_A_3 c i arg1 harg1 arg2 harg2 arg3 harg3 arg4 harg4 arg5 harg5 x0 x1 x2 y)
  have hrun : (kernelRun0_A (F := Ideal) c i arg1 harg1 arg2 harg2 arg3 harg3 arg4 harg4 arg5 harg5 x0 x1 x2).1
      = pb_k0_t1 (F := Ideal) Variants.none c none i arg1 harg1 arg2 harg2 arg3 harg3 arg4 harg4 arg5 harg5 (harg1.unread x0) (harg3.unread x2)
          (arg5.view.writes (Elt Ideal) arg5.view.junk (kernelRun0_A.sl.HS0_1 (F := Ideal) c arg1 harg1 arg2 harg2 x0 x1))
          (Scf.trips (0#32) (Scalar.addi 0#32 8#32) 1#32) := by
    unfold kernelRun0_A
    rfl
  rw [hrun]
  exact trips_restrict Variants.none none c i arg1 harg1 arg2 harg2 arg3 harg3 arg4 harg4 arg5 harg5 x0 x1 x2 _
    (fun r q => scratch_read c arg1 harg1 arg2 harg2 arg5 x0 x1 _ r q) _

end Cert.KernelIdeal.Slabs

end
-- ==== Proof.Whole.lean ====
import proofs.«102737_j63067299774668_2_alg».proof.Proof.Gen.KernelIdeal.Value
import proofs.«102737_j63067299774668_2_alg».proof.Proof.Slabs
import Idealize.ShloMosaic.Lib.StableHlo.Run
import Idealize.ShloMosaic.Lib.Pipeline.Value
import Idealize.ShloMosaic.PureOps.Ideal.Laws

/-
  The kernel's result array as one function of its two arguments.

  The grid has 64 points; point t stages rows 4096 t .. 4096 t + 4095 of the first argument, the whole array of
  centres (which the host has only re-formatted) and the row of the centres' squared norms (which the host has
  summed), and writes back rows 4096 t .. of the result. A point's block is the block function of its three
  blocks, the block function of those blocks is the soft assignment of the corresponding rows, and the 64 blocks
  tile the result: so the result array is the soft assignment of the first argument's rows to the second's.
-/
set_option maxRecDepth 16384

noncomputable section

namespace Cert.KernelIdeal.Whole

open Cert.KernelIdeal Cert.KernelIdeal.Gen Idealize.ShloMosaic Idealize.ShloMosaic.TcCoe Idealize.ShloMosaic.ValueIdx
open Cert.StudentT Cert.KernelIdeal.Slabs
open Idealize.SL Idealize.SL.Sem Idealize.ShloMosaic.StableHlo
open Idealize.ShloMosaic.Pipeline (Dat)

variable (m : (ℓ : Loc nD τ sig) → Buf (Elt Ideal) ℓ) (ρ : Dev nD → PrngReg)

/-- The centres as the region finds them in its second window's array: the host only changes their float format. -/
theorem centres_eq (c : Dev nD) :
    (V m c main_v0 : S512x256.Idx → EReal) = (m ((c : Thread nD τ).loc main_arg1) : S512x256.Idx → EReal) := by
  dsimp only [Gen.V, Gen.hostOps0]
  after_results
  rfl

/-- The row of squared norms as the region finds it in its third window's array. -/
theorem norms_eq (c : Dev nD) :
    (V m c main_v3 : S1x512.Idx → EReal)
      = broadcastInDim S1x512 ![1] bcast_S512_S1x512_1
          (Host.reduceAdd (F := Ideal) (mulf (m ((c : Thread nD τ).loc main_arg1)) (m ((c : Thread nD τ).loc main_arg1)))
            (constant (F := Ideal) S_ .f32 0x00000000#32) reducesTo_S512x256_S512_d1 h_S_) := by
  dsimp only [Gen.V, Gen.hostOps0]
  after_results

/-- The inserted index of the host's sum over the columns of the centres at row k is (k, d). -/
theorem lift_centres (k : Fin 512) (d : Fin 256) (h : S512x256.Reduces [1] S512) : h.lift (ix1 k) d = ix2 k d :=
  funext fun a => Fin.ext (by match a with | ⟨0, _⟩ => rfl | ⟨1, _⟩ => rfl)

/-- The host's row of squared norms of an array C of centres, at (0, k): the sum of the squares of row k (the
    host's sum starts from the float zero, which denotes 0). -/
theorem host_norms_apply (C : FVec Ideal S512x256 .f32) (k : Fin 512) :
    broadcastInDim S1x512 ![1] bcast_S512_S1x512_1
        (Host.reduceAdd (F := Ideal) (mulf C C) (constant (F := Ideal) S_ .f32 0x00000000#32) reducesTo_S512x256_S512_d1 h_S_)
        (ix2 (0 : Fin 1) k)
      = sqNorm (row C k) := by
  rw [broadcastInDim_apply _ bcast_S512_S1x512_1 _ (ix2 (0 : Fin 1) k) (ix1 k) (fun a => match a with
    | ⟨0, _⟩ => by show k.val = if (512 : Nat) = 1 then 0 else k.val; rw [if_neg (by decide)])]
  simp only [Host.reduceAdd, Ideal.hostReduceAdd_def]
  rw [Ideal.hostReduceAdd_single reducesTo_S512x256_S512_d1 (by decide)]
  rw [constant_apply, zero_word_add]
  unfold sqNorm row
  exact Finset.sum_congr rfl fun d _ => congrArg (fun j => C j * C j) (lift_centres k d _)

/-- Entry (0, k) of the row the region finds is the squared norm of centre k. -/
theorem norms_apply (c : Dev nD) (k : Fin 512) :
    (V m c main_v3 : S1x512.Idx → EReal) (ix2 (0 : Fin 1) k) = sqNorm (row (m ((c : Thread nD τ).loc main_arg1)) k) := by
  rw [norms_eq]
  exact host_norms_apply _ k

/-- The printed index maps over the 64 grid points: the input block and the output block move with the point,
    the centres and their norms stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the block of point t is row 4096 t + r of the array. -/
def arrRow (t : Fin cfg0.N) (r : Fin 4096) : Fin 262144 :=
  ⟨4096 * t.val + r.val, by have ht : t.val < 64 := lt_of_lt_of_eq t.isLt N_0; have := r.isLt; omega⟩

/-- The input block of point t holds rows 4096 t .. of the first argument. -/
theorem block_in (c : Dev nD) (t : Fin cfg0.N) (r : Fin 4096) (d : Fin 256) :
    iblk m c 0 t (ix2 r d) = (m ((c : Thread nD τ).loc main_arg0) : S262144x256.Idx → EReal) (ix2 (arrRow t r) d) := by
  show V m c main_arg0 (((cfg0.win 0).blk t).view.emb (ix2 r d)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 4096 + 1 * r.val = 4096 * t.val + r.val; omega
  | ⟨1, _⟩ => show win0_0.index t (1 : Fin 2) * 256 + 1 * d.val = d.val; omega

/-- The centres' block is the whole array of centres, at every point. -/
theorem block_centres (c : Dev nD) (t : Fin cfg0.N) (k : Fin 512) (d : Fin 256) :
    iblk m c 1 t (ix2 k d) = (m ((c : Thread nD τ).loc main_arg1) : S512x256.Idx → EReal) (ix2 k d) := by
  show V m c main_v0 (((cfg0.win 1).blk t).view.emb (ix2 k d)) = _
  have e : ((cfg0.win 1).blk t).view.emb (ix2 k d) = ix2 k d := funext fun a => Fin.ext (by
    obtain ⟨-, -, e2, e3, -⟩ := idx_facts t
    match a with
    | ⟨0, _⟩ => show win0_1.index t (0 : Fin 2) * 512 + 1 * k.val = k.val; omega
    | ⟨1, _⟩ => show win0_1.index t (1 : Fin 2) * 256 + 1 * d.val = d.val; omega)
  exact (congrArg (V m c main_v0) e).trans (congrFun (centres_eq m c) (ix2 k d))

/-- The norms' block is the whole row of squared norms, at every point. -/
theorem block_norms (c : Dev nD) (t : Fin cfg0.N) (k : Fin 512) :
    iblk m c 2 t (ix2 (0 : Fin 1) k) = sqNorm (row (m ((c : Thread nD τ).loc main_arg1)) k) := by
  show V m c main_v3 (((cfg0.win 2).blk t).view.emb (ix2 (0 : Fin 1) k)) = _
  have e : ((cfg0.win 2).blk t).view.emb (ix2 (0 : Fin 1) k) = ix2 (0 : Fin 1) k := funext fun a => Fin.ext (by
    obtain ⟨-, -, -, -, e4, e5, -⟩ := idx_facts t
    match a with
    | ⟨0, _⟩ => show win0_2.index t (0 : Fin 2) * 1 + 1 * (0 : Fin 1).val = (0 : Fin 1).val; omega
    | ⟨1, _⟩ => show win0_2.index t (1 : Fin 2) * 512 + 1 * k.val = k.val; omega)
  exact (congrArg (V m c main_v3) e).trans (norms_apply m c k)

/-- A point's block function from what its three blocks hold: if row r of the input block is row n of X, the
    centres' block is C and the norms' block the squared norms of C's rows, then entry (r, q) of the block function
    is the soft assignment of row n of X to centre q. -/
theorem block_value (X : S262144x256.Idx → EReal) (C : S512x256.Idx → EReal)
    (b0 : S4096x256.Idx → EReal) (b1 : S512x256.Idx → EReal) (b2 : S1x512.Idx → EReal)
    (n : Fin 262144) (r : Fin 4096) (q : Fin 512)
    (h0 : ∀ d : Fin 256, b0 (ix2 r d) = X (ix2 n d)) (h1 : ∀ (k : Fin 512) (d : Fin 256), b1 (ix2 k d) = C (ix2 k d))
    (h2 : ∀ k : Fin 512, b2 (ix2 (0 : Fin 1) k) = sqNorm (row C k)) :
    blockFn b0 b1 b2 (ix2 r q) = softAssign X C n q := by
  have e0 : row b0 r = row X n := funext h0
  have e1 : ∀ k, row b1 k = row C k := fun k => funext (h1 k)
  have e2 : (fun k => b2 (ix2 (0 : Fin 1) k)) = fun k => sqNorm (row C k) := funext h2
  show assign (sqNorm (row b0 r)) (fun k => b2 (ix2 (0 : Fin 1) k)) (fun k => dot (row b0 r) (row b1 k)) q = _
  rw [e0, e2]
  simp only [e1]
  rfl

/-- THE RESULT ARRAY: the soft assignment of the rows of the first argument to the rows of the second. -/
def result (c : Dev nD) : S262144x512.Idx → EReal :=
  softAssignArr (m ((c : Thread nD τ).loc main_arg0)) (m ((c : Thread nD τ).loc main_arg1))

/-- WHAT POINT t WRITES BACK is block t of the result array. -/
theorem flushed_eq (c : Dev nD) (t : Fin cfg0.N) :
    (dats m 0 c).flushed 3 t = ((cfg0.win 3).blk t).view.read (Elt Ideal) (result m c) := by
  rw [Value.flushed3_A]
  funext j
  obtain ⟨r, q, rfl⟩ : ∃ (r : Fin 4096) (q : Fin 512), j = ix2 r q := ⟨j 0, j 1, @eq_ix2 4096 512 j⟩
  show out0_A_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (ix2 r q)
    = result m c (((cfg0.win 3).blk t).view.emb (ix2 r q))
  refine (out_apply c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (ix2 r q)).trans ?_
  have e : ((cfg0.win 3).blk t).view.emb (ix2 r q) = ix2 (arrRow t r) q := funext fun a => Fin.ext (by
    obtain ⟨-, -, -, -, -, -, e6, e7⟩ := idx_facts t
    match a with
    | ⟨0, _⟩ => show win0_3.index t (0 : Fin 2) * 4096 + 1 * r.val = 4096 * t.val + r.val; omega
    | ⟨1, _⟩ => show win0_3.index t (1 : Fin 2) * 512 + 1 * q.val = q.val; omega)
  refine Eq.trans ?_ (congrArg (result m c) e).symm
  exact block_value _ _ _ _ _ (arrRow t r) r q (block_in m c t r) (block_centres m c t) (block_norms m c t)

/-- An index of the array is in point t's block iff each coordinate is in the block's range on its axis. -/
theorem mem_blk (t : Fin cfg0.N) (i : S262144x512.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v4).slice (win0_3.rect t)).set ↔ _
  rw [View.set_slice_whole, Rect.mem_set_unit]
  exact Iff.rfl

/-- THE BLOCKS COVER THE ARRAY: row n lies in the block of point n / 4096. -/
theorem cover (i : S262144x512.Idx) : ∃ t : Fin cfg0.N, (cfg0.win 3).flush t = true ∧ i ∈ ((cfg0.win 3).blk t).view.set := by
  have h0 : (i 0).val < 262144 := (i 0).isLt
  have h1 : (i 1).val < 512 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

/-- THE ARRAY after the run is the result array. -/
theorem final (c : Dev nD) : (dats m 0 c).arrAt 3 cfg0.N = result m c :=
  (dats m 0 c).arrAt_eq_of_cover 3 (result m c) (fun t _ => flushed_eq m c t) cover

/-- The kernel's run: every weakly fair execution ends with the result array in the result buffer and the two
    arguments as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefAssign.lean ====
import proofs.«102737_j63067299774668_2_alg».proof.Proof.Gen.ReferenceIdeal.Read
import proofs.«102737_j63067299774668_2_alg».proof.Proof.StudentT

/-
  The reference program's result is the soft assignment.

  Read one operation at a time, entry (n, k) of the reference's weights is
      (1 / (1 + max (|x_n|^2 + |c_k|^2 - 2 (x_n . c_k), 0) / 1)) ^ 1,
  where the two squared norms are host sums started from the float zero and the product is the host's contraction
  over the 256 columns. Dividing by 1 and raising to the power 1 change nothing on the extended reals, and the
  zero a sum starts from adds nothing: the weight is the Student-t weight. The result divides it by the host's
  sum of the 512 weights of row n.
-/

noncomputable section

namespace Cert.ReferenceIdeal.Assign

open Cert.ReferenceIdeal Cert.ReferenceIdeal.Gen Cert.ReferenceIdeal.Read Idealize.ShloMosaic Idealize.ShloMosaic.ValueIdx Cert.StudentT

/-- The squared-norm sum of the data reads row n, whatever the column asked for. -/
theorem idx_xsq (n : Fin 262144) (k : Fin 512) (d : Fin 256) :
    idx_main_v1 (idx_main_v2 (idx_main_v7 (ix2 n k))) d = ix2 n d := funext fun a => Fin.ext (by match a with | ⟨0, _⟩ => rfl | ⟨1, _⟩ => rfl)

/-- The squared-norm sum of the centres reads row k, whatever the row asked for. -/
theorem idx_csq (n : Fin 262144) (k : Fin 512) (d : Fin 256) :
    idx_main_v4 (idx_main_v5 (idx_main_v8 (ix2 n k))) d = ix2 k d := funext fun a => Fin.ext (by match a with | ⟨0, _⟩ => rfl | ⟨1, _⟩ => rfl)

/-- The contraction at (n, k) reads the data at (n, d) and the centres at (k, d). -/
theorem idx_lhs (n : Fin 262144) (k : Fin 512) (d : Fin 256) : lidx_main_v6 (ix2 n k) d = ix2 n d := funext fun a => Fin.ext (by match a with | ⟨0, _⟩ => rfl | ⟨1, _⟩ => rfl)
theorem idx_rhs (n : Fin 262144) (k : Fin 512) (d : Fin 256) : ridx_main_v6 (ix2 n k) d = ix2 k d := funext fun a => Fin.ext (by match a with | ⟨0, _⟩ => rfl | ⟨1, _⟩ => rfl)

/-- Entry (n, k) of the reference's weights is the Student-t weight of row n against centre k. -/
theorem weight_ref (x0 : (⟨S262144x256, .f32⟩ : BufTy).Contents (Elt Ideal)) (x1 : (⟨S512x256, .f32⟩ : BufTy).Contents (Elt Ideal))
    (n : Fin 262144) (k : Fin 512) :
    val_main_v22 (F := Ideal) x0 x1 (ix2 n k) = weight (sqNorm (row x0 n)) (sqNorm (row x1 k)) (dot (row x0 n) (row x1 k)) := by
  simp only [val_main_v0_apply, val_main_cst_apply, val_main_v1_apply, val_main_v2_apply, val_main_v3_apply, val_main_cst_0_apply, val_main_v4_apply, val_main_v5_apply, val_main_v6_apply, val_main_v7_apply, val_main_v8_apply, val_main_v9_apply, val_main_cst_1_apply, val_main_v10_apply, val_main_v11_apply, val_main_v12_apply, val_main_cst_2_apply, val_main_v13_apply, val_main_v14_apply, val_main_cst_3_apply, val_main_v15_apply, val_main_v16_apply, val_main_cst_4_apply, val_main_v17_apply, val_main_v18_apply, val_main_cst_5_apply, val_main_v19_apply, val_main_v20_apply, val_main_cst_6_apply, val_main_v21_apply, val_main_v22_apply, val_main_cst_7_apply]
  simp only [idx_xsq, idx_csq, idx_lhs, idx_rhs]
  show Ideal.pow (Ideal.div (Ideal.ofBits .f32 0x3F800000#32) (Ideal.ofBits .f32 0x3F800000#32 + Ideal.div (max (((Ideal.ofBits .f32 0x00000000#32 + ∑ d : Fin 256, x0 (ix2 n d) * x0 (ix2 n d)) + (Ideal.ofBits .f32 0x00000000#32 + ∑ d : Fin 256, x1 (ix2 k d) * x1 (ix2 k d))) - Ideal.ofBits .f32 0x40000000#32 * ∑ d : Fin 256, x0 (ix2 n d) * x1 (ix2 k d)) (Ideal.ofBits .f32 0x00000000#32)) (Ideal.ofBits .f32 0x3F800000#32))) (Ideal.ofBits .f32 0x3F800000#32) = _
  rw [pow_one, div_one, zero_word_add, zero_word_add]
  rfl

/-- The row sum of the weights at row n reads the weights at (n, k'). -/
theorem idx_rowsum (n : Fin 262144) (k : Fin 512) (k' : Fin 512) :
    idx_main_v23 (idx_main_v24 (idx_main_v25 (ix2 n k))) k' = ix2 n k' := funext fun a => Fin.ext (by match a with | ⟨0, _⟩ => rfl | ⟨1, _⟩ => rfl)

/-- THE REFERENCE'S RESULT is the soft assignment of the rows of its first argument to the rows of its second. -/
theorem result_ref (x0 : (⟨S262144x256, .f32⟩ : BufTy).Contents (Elt Ideal)) (x1 : (⟨S512x256, .f32⟩ : BufTy).Contents (Elt Ideal)) :
    val_main_v26 (F := Ideal) x0 x1 = softAssignArr x0 x1 := by
  funext i
  obtain ⟨n, k, rfl⟩ : ∃ (n : Fin 262144) (k : Fin 512), i = ix2 n k := ⟨i 0, i 1, eq_ix2 i⟩
  rw [val_main_v26_apply, val_main_v25_apply, val_main_v24_apply, val_main_v23_apply, val_main_cst_7_apply]
  simp only [idx_rowsum, weight_ref]
  show Ideal.div _ (Ideal.ofBits .f32 0x00000000#32 + _) = _
  rw [zero_word_add]
  rfl

end Cert.ReferenceIdeal.Assign

end
-- ==== Proof.lean ====
/-
  The certificate's claim: the Pallas kernel for the clustering layer (pairwise squared distances to 512 centres,
  a Student-t kernel with one degree of freedom, rows normalised) against its jnp reference.

  On the extended reals both programs compute, for row n of the data and centre k,
      w(n, k) = 1 / (1 + max (|x_n|^2 + |c_k|^2 - 2 (x_n . c_k), 0)),      q(n, k) = w(n, k) / sum over k' of w(n, k').
  The kernel takes the products x_n . c_k by a matrix product of re-formatted operands (a change of float format
  is the identity here) into a scratch, and then walks each block of 4096 rows in eight slabs of 512 rows; the
  reference takes the same sums on the host, and in addition divides the squared distance by the float 1 and
  raises the weight to the power 1, which change no extended real. No sum is re-associated across the two sides
  and no factor is moved across a sum, so the equality holds at the infinities too and the precondition is not used.

  The three frames are the generated ones (the reference's is its generated run with the result dropped); the
  idealisation rewrote nothing, so that conjunct is trivial; the value claim sets the kernel's run
  (Proof/Whole.lean) beside the reference's (Proof/RefAssign.lean), both at the soft assignment of Proof/StudentT.lean.
-/
import proofs.«102737_j63067299774668_2_alg».proof.Defs
import proofs.«102737_j63067299774668_2_alg».proof.Proof.Gen.Kernel
import proofs.«102737_j63067299774668_2_alg».proof.Proof.Gen.Kernel.Frame
import proofs.«102737_j63067299774668_2_alg».proof.Proof.Gen.KernelIdeal
import proofs.«102737_j63067299774668_2_alg».proof.Proof.Gen.KernelIdeal.Frame
import proofs.«102737_j63067299774668_2_alg».proof.Proof.Gen.KernelIdeal.Value
import proofs.«102737_j63067299774668_2_alg».proof.Proof.Gen.ReferenceIdeal
import proofs.«102737_j63067299774668_2_alg».proof.Proof.Gen.ReferenceIdeal.Run
import proofs.«102737_j63067299774668_2_alg».proof.Proof.Gen.ReferenceIdeal.Read
import proofs.«102737_j63067299774668_2_alg».proof.Proof.Gen.Pre_finite_inputs
import proofs.«102737_j63067299774668_2_alg».proof.Proof.Whole
import proofs.«102737_j63067299774668_2_alg».proof.Proof.RefAssign
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the two arguments, the kernel's result array and the reference's are the same
    array: the soft assignment of the rows of the first argument to the rows of the second. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Assign.result_ref, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
